-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S65536x685 : Shape := ⟨2, ![65536, 685]⟩
abbrev S65536 : Shape := ⟨1, ![65536]⟩
abbrev S768x685 : Shape := ⟨2, ![768, 685]⟩
abbrev S768x256 : Shape := ⟨2, ![768, 256]⟩
abbrev S768 : Shape := ⟨1, ![768]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S65536x685 : S_.BroadcastsInDim S65536x685 (![] : Fin 0 → Fin S65536x685.rank)
  reducesTo_S65536x685_S_d0_1 : S65536x685.ReducesTo [0, 1] S_
  bcast_S_S768x685 : S_.BroadcastsInDim S768x685 (![] : Fin 0 → Fin S768x685.rank)
  reducesTo_S768x685_S_d0_1 : S768x685.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg5 : FVec F S768 .f32) (main_arg6 : FVec F S768 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S200000x256 .f32) (main_arg1 : FVec F S65536x685 .f32) (main_arg2 : IVec S65536 32) (main_arg3 : FVec F S768x685 .f32) (main_arg4 : FVec F S768x256 .f32) (main_arg5 : FVec F S768 .f32) (main_arg6 : FVec F S768 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S65536x685 .f32 := Host.absf main_arg1
  let main_cst_0 : FVec F S_ .f32 := constant S_ .f32 0x7F800000#32
  let main_v5 : FVec F S65536x685 .f32 := broadcastInDim S65536x685 ![] bcast_S_S65536x685 main_cst_0
  let main_v6 : IVec S65536x685 1 := cmpf .olt main_v4 main_v5
  let main_c_1 : IVec S_ 1 := constantI S_ 1 1#1
  let main_v7 : IVec S_ 1 := (fun x v => Host.reduce IntOp.andi x v reducesTo_S65536x685_S_d0_1 h_S_) main_v6 main_c_1
  let main_v8 : IVec S_ 1 := andi main_v3 main_v7
  let main_v9 : FVec F S768x685 .f32 := Host.absf main_arg3
  let main_cst_2 : FVec F S_ .f32 := constant S_ .f32 0x7F800000#32
  let main_v10 : FVec F S768x685 .f32 := broadcastInDim S768x685 ![] bcast_S_S768x685 main_cst_2
  let main_v11 : IVec S768x685 1 := cmpf .olt main_v9 main_v10
  let main_c_3 : IVec S_ 1 := constantI S_ 1 1#1
  let main_v12 : IVec S_ 1 := (fun x v => Host.reduce IntOp.andi x v reducesTo_S768x685_S_d0_1 h_S_) main_v11 main_c_3
  let main_v13 : IVec S_ 1 := andi main_v8 main_v12
  let main_v14 : FVec F S768x256 .f32 := Host.absf main_arg4
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg5 main_arg6 main_v13 main_v16
-- ==== Kernel.lean ====
abbrev S200000x256 : Shape := ⟨2, ![200000, 256]⟩
abbrev S65536x685 : Shape := ⟨2, ![65536, 685]⟩
abbrev S65536 : Shape := ⟨1, ![65536]⟩
abbrev S768x685 : Shape := ⟨2, ![768, 685]⟩
abbrev S768x256 : Shape := ⟨2, ![768, 256]⟩
abbrev S768 : Shape := ⟨1, ![768]⟩
abbrev S_ : Shape := ⟨0, ![]⟩
abbrev S65536x1 : Shape := ⟨2, ![65536, 1]⟩
abbrev S65536x256 : Shape := ⟨2, ![65536, 256]⟩
abbrev S685x768 : Shape := ⟨2, ![685, 768]⟩
abbrev S256x768 : Shape := ⟨2, ![256, 768]⟩
abbrev S1x768 : Shape := ⟨2, ![1, 768]⟩
abbrev S1024x685 : Shape := ⟨2, ![1024, 685]⟩
abbrev S1024x256 : Shape := ⟨2, ![1024, 256]⟩
abbrev S1024x768 : Shape := ⟨2, ![1024, 768]⟩

abbrev nBuf : Space → Nat
  | .hbm => 32
  | .vmem => 10
  | .smem => 0
  | _ => 0

abbrev bufTy : (tb : Table) → Fin (tcTables nBuf tb) → BufTy
  | .hbm, ⟨0, _⟩ => ⟨S200000x256, .f32⟩
  | .hbm, ⟨1, _⟩ => ⟨S65536x685, .f32⟩
  | .hbm, ⟨2, _⟩ => ⟨S65536, .i32⟩
  | .hbm, ⟨3, _⟩ => ⟨S768x685, .f32⟩
  | .hbm, ⟨4, _⟩ => ⟨S768x256, .f32⟩
  | .hbm, ⟨5, _⟩ => ⟨S768, .f32⟩
  | .hbm, ⟨6, _⟩ => ⟨S768, .f32⟩
  | .hbm, ⟨7, _⟩ => ⟨S_, .i32⟩
  | .hbm, ⟨8, _⟩ => ⟨S65536, .i32⟩
  | .hbm, ⟨9, _⟩ => ⟨S65536, .i1⟩
  | .hbm, ⟨10, _⟩ => ⟨S_, .i32⟩
  | .hbm, ⟨11, _⟩ => ⟨S65536, .i32⟩
  | .hbm, ⟨12, _⟩ => ⟨S65536, .i32⟩
  | .hbm, ⟨13, _⟩ => ⟨S65536, .i32⟩
  | .hbm, ⟨14, _⟩ => ⟨S65536x1, .i32⟩
  | .hbm, ⟨15, _⟩ => ⟨S65536x256, .f32⟩
  | .hbm, ⟨16, _⟩ => ⟨S685x768, .f32⟩
  | .hbm, ⟨17, _⟩ => ⟨S685x768, .bf16⟩
  | .hbm, ⟨18, _⟩ => ⟨S256x768, .f32⟩
  | .hbm, ⟨19, _⟩ => ⟨S256x768, .bf16⟩
  | .hbm, ⟨20, _⟩ => ⟨S1x768, .f32⟩
  | .hbm, ⟨21, _⟩ => ⟨S1x768, .f32⟩
  | .hbm, ⟨22, _⟩ => ⟨S65536x256, .f32⟩
  | .hbm, ⟨23, _⟩ => ⟨S_, .i32⟩
  | .hbm, ⟨24, _⟩ => ⟨S65536, .i32⟩
  | .hbm, ⟨25, _⟩ => ⟨S65536, .i1⟩
  | .hbm, ⟨26, _⟩ => ⟨S_, .i32⟩
  | .hbm, ⟨27, _⟩ => ⟨S65536, .i32⟩
  | .hbm, ⟨28, _⟩ => ⟨S65536, .i32⟩
  | .hbm, ⟨29, _⟩ => ⟨S65536, .i32⟩
  | .hbm, ⟨30, _⟩ => ⟨S65536x1, .i32⟩
  | .hbm, ⟨31, _⟩ => ⟨S200000x256, .f32⟩
  | .local _ .vmem, ⟨0, _⟩ => ⟨S1024x685, .f32⟩
  | .local _ .vmem, ⟨1, _⟩ => ⟨S1024x685, .f32⟩
  | .local _ .vmem, ⟨2, _⟩ => ⟨S1024x256, .f32⟩
  | .local _ .vmem, ⟨3, _⟩ => ⟨S1024x256, .f32⟩
  | .local _ .vmem, ⟨4, _⟩ => ⟨S685x768, .bf16⟩
  | .local _ .vmem, ⟨5, _⟩ => ⟨S256x768, .bf16⟩
  | .local _ .vmem, ⟨6, _⟩ => ⟨S1x768, .f32⟩
  | .local _ .vmem, ⟨7, _⟩ => ⟨S1x768, .f32⟩
  | .local _ .vmem, ⟨8, _⟩ => ⟨S1024x256, .f32⟩
  | .local _ .vmem, ⟨9, _⟩ => ⟨S1024x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_c_1 : Ref sig .tc := ⟨.hbm, 23, rfl⟩
abbrev main_call0_v14 : Ref sig .tc := ⟨.hbm, 24, rfl⟩
abbrev main_call0_v15 : Ref sig .tc := ⟨.hbm, 25, rfl⟩
abbrev main_call0_c_2 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_v0 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x685 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S685x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  transposes_S768x685_S685x768_1_0 : S768x685.Transposes [1, 0] S685x768
  bitsLt_bf16_f32 : FTy.bits .bf16 < FTy.bits .f32
  transposes_S768x256_S256x768_1_0 : S768x256.Transposes [1, 0] S256x768
  shapeCasts_S768_S1x768 : S768.ShapeCasts S1x768
  inb_S1024x685_S1024x685_0_0 : ∀ a, (![0, 0] : Fin 2 → Nat) a + S1024x685.size a ≤ S1024x685.size a
  h_S1024x685 : 0 < S1024x685.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S685x768_S685x768_0_0 : ∀ a, (![0, 0] : Fin 2 → Nat) a + S685x768.size a ≤ S685x768.size a
  h_S685x768 : 0 < S685x768.numel
  shapeCasts_S685x768_S685x768 : S685x768.ShapeCasts S685x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  gather_S200000x256_S65536x1_S65536x256_1_0_n_n_0_1_1256_wf : GatherDims.WF S200000x256 S65536x1 S65536x256 [1] [0] [] [0] [] 1 ![1, 256]
  scatter_S200000x256_S65536x1_S65536x256_1_0_0_1_wf : ScatterDims.WF S200000x256 S65536x1 S65536x256 [1] [0] [0] 1
  dot_S1024x685_S685x768_S1024x768_1_0_0_1_n_n_wf : DotDims.WF S1024x685 S685x768 S1024x768 [1] [0] [0] [1] [] []
  dot_S1024x256_S256x768_S1024x768_1_0_0_1_n_n_wf : DotDims.WF S1024x256 S256x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x685.size a ≤ S65536x685.size a
  hwx0_0 : ∀ i : grid0.Coords, EltTy.bits .f32 = 32 ∨ (Rect.block (s := S65536x685) S1024x685.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S685x768.size a ≤ S685x768.size a
  hwx0_2 : ∀ i : grid0.Coords, EltTy.bits .bf16 = 32 ∨ (Rect.block (s := S685x768) S685x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .bf16 = 32 ∨ (Rect.block (s := S256x768) S256x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S65536x256.size a
  hwx0_6 : ∀ i : grid0.Coords, EltTy.bits .f32 = 32 ∨ (Rect.block (s := S65536x256) S1024x256.size (cc0_transform_6 i) (hinb0_6 i)).WholeWords (EltTy.packing .f32)

variable [Facts₀]

def gather_S200000x256_S65536x1_S65536x256_1_0_n_n_0_1_1256 : GatherDims S200000x256 S65536x1 S65536x256 where
  offsetDims := [1]
  collapsedSliceDims := [0]
  operandBatchingDims := []
  startIndicesBatchingDims := []
  startIndexMap := [0]
  indexVectorDim := 1
  sliceSizes := ![1, 256]
  wf := gather_S200000x256_S65536x1_S65536x256_1_0_n_n_0_1_1256_wf
def scatter_S200000x256_S65536x1_S65536x256_1_0_0_1 : ScatterDims S200000x256 S65536x1 S65536x256 where
  updateWindowDims := [1]
  insertedWindowDims := [0]
  scatterDimsToOperandDims := [0]
  indexVectorDim := 1
  wf := scatter_S200000x256_S65536x1_S65536x256_1_0_0_1_wf
def dot_S1024x685_S685x768_S1024x768_1_0_0_1_n_n : DotDims S1024x685 S685x768 S1024x768 where
  lhsContracting := [1]
  rhsContracting := [0]
  lhsNonContracting := [0]
  rhsNonContracting := [1]
  lhsBatch := []
  rhsBatch := []
  wf := dot_S1024x685_S685x768_S1024x768_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf

abbrev win0_0 : Pipeline.Window sig grid0 :=
  Pipeline.Window.ofSpec (Memref.whole main_arg1) S1024x685.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v8) S685x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v10) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v11) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v12) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v13) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S200000x256 : Shape := ⟨2, ![200000, 256]⟩
abbrev S65536x685 : Shape := ⟨2, ![65536, 685]⟩
abbrev S65536 : Shape := ⟨1, ![65536]⟩
abbrev S768x685 : Shape := ⟨2, ![768, 685]⟩
abbrev S768x256 : Shape := ⟨2, ![768, 256]⟩
abbrev S768 : Shape := ⟨1, ![768]⟩
abbrev S_ : Shape := ⟨0, ![]⟩
abbrev S65536x1 : Shape := ⟨2, ![65536, 1]⟩
abbrev S65536x256 : Shape := ⟨2, ![65536, 256]⟩
abbrev S685x768 : Shape := ⟨2, ![685, 768]⟩
abbrev S65536x768 : Shape := ⟨2, ![65536, 768]⟩
abbrev S1x768 : Shape := ⟨2, ![1, 768]⟩
abbrev S256x768 : Shape := ⟨2, ![256, 768]⟩

abbrev nBuf : Space → Nat
  | .hbm => 68
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S65536x685, .f32⟩
  | .hbm, ⟨2, _⟩ => ⟨S65536, .i32⟩
  | .hbm, ⟨3, _⟩ => ⟨S768x685, .f32⟩
  | .hbm, ⟨4, _⟩ => ⟨S768x256, .f32⟩
  | .hbm, ⟨5, _⟩ => ⟨S768, .f32⟩
  | .hbm, ⟨6, _⟩ => ⟨S768, .f32⟩
  | .hbm, ⟨7, _⟩ => ⟨S_, .i32⟩
  | .hbm, ⟨8, _⟩ => ⟨S65536, .i32⟩
  | .hbm, ⟨9, _⟩ => ⟨S65536, .i1⟩
  | .hbm, ⟨10, _⟩ => ⟨S_, .i32⟩
  | .hbm, ⟨11, _⟩ => ⟨S65536, .i32⟩
  | .hbm, ⟨12, _⟩ => ⟨S65536, .i32⟩
  | .hbm, ⟨13, _⟩ => ⟨S65536, .i32⟩
  | .hbm, ⟨14, _⟩ => ⟨S65536x1, .i32⟩
  | .hbm, ⟨15, _⟩ => ⟨S65536x256, .f32⟩
  | .hbm, ⟨16, _⟩ => ⟨S685x768, .f32⟩
  | .hbm, ⟨17, _⟩ => ⟨S65536x768, .f32⟩
  | .hbm, ⟨18, _⟩ => ⟨S1x768, .f32⟩
  | .hbm, ⟨19, _⟩ => ⟨S65536x768, .f32⟩
  | .hbm, ⟨20, _⟩ => ⟨S65536x768, .f32⟩
  | .hbm, ⟨21, _⟩ => ⟨S256x768, .f32⟩
  | .hbm, ⟨22, _⟩ => ⟨S65536x768, .f32⟩
  | .hbm, ⟨23, _⟩ => ⟨S1x768, .f32⟩
  | .hbm, ⟨24, _⟩ => ⟨S65536x768, .f32⟩
  | .hbm, ⟨25, _⟩ => ⟨S65536x768, .f32⟩
  | .hbm, ⟨26, _⟩ => ⟨S65536x256, .f32⟩
  | .hbm, ⟨27, _⟩ => ⟨S65536x256, .f32⟩
  | .hbm, ⟨28, _⟩ => ⟨S65536x256, .f32⟩
  | .hbm, ⟨29, _⟩ => ⟨S65536x256, .f32⟩
  | .hbm, ⟨30, _⟩ => ⟨S65536x256, .f32⟩
  | .hbm, ⟨31, _⟩ => ⟨S65536x256, .f32⟩
  | .hbm, ⟨32, _⟩ => ⟨S65536x256, .f32⟩
  | .hbm, ⟨33, _⟩ => ⟨S65536x256, .f32⟩
  | .hbm, ⟨34, _⟩ => ⟨S65536x256, .f32⟩
  | .hbm, ⟨35, _⟩ => ⟨S_, .f32⟩
  | .hbm, ⟨36, _⟩ => ⟨S65536x256, .f32⟩
  | .hbm, ⟨37, _⟩ => ⟨S65536x256, .f32⟩
  | .hbm, ⟨38, _⟩ => ⟨S_, .f32⟩
  | .hbm, ⟨39, _⟩ => ⟨S65536x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S65536x256, .f32⟩
  | .hbm, ⟨44, _⟩ => ⟨S_, .f32⟩
  | .hbm, ⟨45, _⟩ => ⟨S65536x256, .f32⟩
  | .hbm, ⟨46, _⟩ => ⟨S65536x256, .f32⟩
  | .hbm, ⟨47, _⟩ => ⟨S_, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S_, .f32⟩
  | .hbm, ⟨54, _⟩ => ⟨S65536x256, .f32⟩
  | .hbm, ⟨55, _⟩ => ⟨S65536x256, .f32⟩
  | .hbm, ⟨56, _⟩ => ⟨S65536x256, .f32⟩
  | .hbm, ⟨57, _⟩ => ⟨S65536x256, .f32⟩
  | .hbm, ⟨58, _⟩ => ⟨S65536x256, .f32⟩
  | .hbm, ⟨59, _⟩ => ⟨S_, .i32⟩
  | .hbm, ⟨60, _⟩ => ⟨S65536, .i32⟩
  | .hbm, ⟨61, _⟩ => ⟨S65536, .i1⟩
  | .hbm, ⟨62, _⟩ => ⟨S_, .i32⟩
  | .hbm, ⟨63, _⟩ => ⟨S65536, .i32⟩
  | .hbm, ⟨64, _⟩ => ⟨S65536, .i32⟩
  | .hbm, ⟨65, _⟩ => ⟨S65536, .i32⟩
  | .hbm, ⟨66, _⟩ => ⟨S65536x1, .i32⟩
  | .hbm, ⟨67, _⟩ => ⟨S200000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_5 : Ref sig .tc := ⟨.hbm, 59, rfl⟩
abbrev main_v45 : Ref sig .tc := ⟨.hbm, 60, rfl⟩
abbrev main_v46 : Ref sig .tc := ⟨.hbm, 61, rfl⟩
abbrev main_c_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  transposes_S768x685_S685x768_1_0 : S768x685.Transposes [1, 0] S685x768
  bcast_S768_S1x768_1 : S768.BroadcastsInDim S1x768 (![1] : Fin 1 → Fin S1x768.rank)
  bcast_S1x768_S65536x768_0_1 : S1x768.BroadcastsInDim S65536x768 (![0, 1] : Fin 2 → Fin S65536x768.rank)
  transposes_S768x256_S256x768_1_0 : S768x256.Transposes [1, 0] S256x768
  slices_S65536x768_S65536x256_0_0 : S65536x768.Slices ![0, 0] S65536x256
  slices_S65536x768_S65536x256_0_256 : S65536x768.Slices ![0, 256] S65536x256
  slices_S65536x768_S65536x256_0_512 : S65536x768.Slices ![0, 512] S65536x256
  bcast_S_S65536x256 : S_.BroadcastsInDim S65536x256 (![] : Fin 0 → Fin S65536x256.rank)
  gather_S200000x256_S65536x1_S65536x256_1_0_n_n_0_1_1256_wf : GatherDims.WF S200000x256 S65536x1 S65536x256 [1] [0] [] [0] [] 1 ![1, 256]
  dot_S65536x685_S685x768_S65536x768_1_0_0_1_n_n_wf : DotDims.WF S65536x685 S685x768 S65536x768 [1] [0] [0] [1] [] []
  dot_S65536x256_S256x768_S65536x768_1_0_0_1_n_n_wf : DotDims.WF S65536x256 S256x768 S65536x768 [1] [0] [0] [1] [] []
  scatter_S200000x256_S65536x1_S65536x256_1_0_0_1_wf : ScatterDims.WF S200000x256 S65536x1 S65536x256 [1] [0] [0] 1

variable [Facts₀]

def gather_S200000x256_S65536x1_S65536x256_1_0_n_n_0_1_1256 : GatherDims S200000x256 S65536x1 S65536x256 where
  offsetDims := [1]
  collapsedSliceDims := [0]
  operandBatchingDims := []
  startIndicesBatchingDims := []
  startIndexMap := [0]
  indexVectorDim := 1
  sliceSizes := ![1, 256]
  wf := gather_S200000x256_S65536x1_S65536x256_1_0_n_n_0_1_1256_wf
def dot_S65536x685_S685x768_S65536x768_1_0_0_1_n_n : DotDims S65536x685 S685x768 S65536x768 where
  lhsContracting := [1]
  rhsContracting := [0]
  lhsNonContracting := [0]
  rhsNonContracting := [1]
  lhsBatch := []
  rhsBatch := []
  wf := dot_S65536x685_S685x768_S65536x768_1_0_0_1_n_n_wf
def dot_S65536x256_S256x768_S65536x768_1_0_0_1_n_n : DotDims S65536x256 S256x768 S65536x768 where
  lhsContracting := [1]
  rhsContracting := [0]
  lhsNonContracting := [0]
  rhsNonContracting := [1]
  lhsBatch := []
  rhsBatch := []
  wf := dot_S65536x256_S256x768_S65536x768_1_0_0_1_n_n_wf
def scatter_S200000x256_S65536x1_S65536x256_1_0_0_1 : ScatterDims S200000x256 S65536x1 S65536x256 where
  updateWindowDims := [1]
  insertedWindowDims := [0]
  scatterDimsToOperandDims := [0]
  indexVectorDim := 1
  wf := scatter_S200000x256_S65536x1_S65536x256_1_0_0_1_wf

class Facts : Prop extends Facts₀ where

variable [Facts]
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«162463_j82944408420703_2_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.GruCell.lean ====
/-
  One step of a gated recurrent unit on the extended reals, for ONE row.

  A row `x` of 685 message features and the row `h` of 256 state features it updates are each sent through a dense
  layer with 768 = 3 · 256 output columns, `gi = x · Wi + bi` and `gh = h · Wh + bh`; the three bands of 256 columns
  are the reset, update and candidate parts. With `σ t = 1 / (1 + e⁻ᵗ)`,

      r = σ (gi_r + gh_r),   z = σ (gi_z + gh_z),   n = tanh (gi_n + r · gh_n),   h' = (1 - z) · n + z · h.

  The weights are kept as the [K, 768] matrices the products contract against and the biases as [1, 768] rows, the
  shapes both programs hand to their products and sums. Column `d` of the new state depends on row `x`, row `h`, the
  columns `d`, `256 + d`, `512 + d` of the weights and biases, and nothing else.
-/
import Idealize.ShloMosaic.PureOps.Ideal
import Idealize.ShloMosaic.Lib.ValueIdx

noncomputable section

open scoped BigOperators

namespace Cert.Gru

open Idealize.ShloMosaic Idealize.ShloMosaic.ValueIdx

/-- Column `g` of `x · W + b` for one row `x`: the sum over the contracted axis plus the bias row's entry. -/
def aff {K : ℕ} (x : Fin K → EReal) (W : (⟨2, ![K, 768]⟩ : Shape).Idx → EReal)
    (b : (⟨2, ![1, 768]⟩ : Shape).Idx → EReal) (g : Fin 768) : EReal :=
  (∑ k : Fin K, x k * W (ix2 k g)) + b (ix2 (0 : Fin 1) g)

/-- Column `d` of the reset band … -/
def colR (d : Fin 256) : Fin 768 := ⟨d.val, by have := d.isLt; omega⟩
/-- … of the update band … -/
def colZ (d : Fin 256) : Fin 768 := ⟨256 + d.val, by have := d.isLt; omega⟩
/-- … and of the candidate band. -/
def colN (d : Fin 256) : Fin 768 := ⟨512 + d.val, by have := d.isLt; omega⟩

/-- The gates: from the two rows of 768 pre-activations `gi`, `gh` and the old state's entry `hd` at column `d`,
    the new state's entry `(1 - z) · n + z · hd`. -/
def cellOf (gi gh : Fin 768 → EReal) (hd : EReal) (d : Fin 256) : EReal :=
  (1 - Ideal.logistic (gi (colZ d) + gh (colZ d)))
      * Ideal.tanh (gi (colN d) + Ideal.logistic (gi (colR d) + gh (colR d)) * gh (colN d))
    + Ideal.logistic (gi (colZ d) + gh (colZ d)) * hd

/-- Column `d` of the updated state row. -/
def cell (x : Fin 685 → EReal) (h : Fin 256 → EReal)
    (Wi : (⟨2, ![685, 768]⟩ : Shape).Idx → EReal) (Wh : (⟨2, ![256, 768]⟩ : Shape).Idx → EReal)
    (bi bh : (⟨2, ![1, 768]⟩ : Shape).Idx → EReal) (d : Fin 256) : EReal :=
  cellOf (aff x Wi bi) (aff h Wh bh) (h d) d

/-- The updated state as a whole [R, 256] matrix: row `r` is the cell of row `r` of the messages and of the old state. -/
def cellRows {R : ℕ} (X : (⟨2, ![R, 685]⟩ : Shape).Idx → EReal) (H : (⟨2, ![R, 256]⟩ : Shape).Idx → EReal)
    (Wi : (⟨2, ![685, 768]⟩ : Shape).Idx → EReal) (Wh : (⟨2, ![256, 768]⟩ : Shape).Idx → EReal)
    (bi bh : (⟨2, ![1, 768]⟩ : Shape).Idx → EReal) : (⟨2, ![R, 256]⟩ : Shape).Idx → EReal :=
  fun i => cell (fun k => X (ix2 (i 0) k)) (fun k => H (ix2 (i 0) k)) Wi Wh bi bh (i 1)

theorem cellRows_apply {R : ℕ} (X : (⟨2, ![R, 685]⟩ : Shape).Idx → EReal) (H : (⟨2, ![R, 256]⟩ : Shape).Idx → EReal)
    (Wi : (⟨2, ![685, 768]⟩ : Shape).Idx → EReal) (Wh : (⟨2, ![256, 768]⟩ : Shape).Idx → EReal)
    (bi bh : (⟨2, ![1, 768]⟩ : Shape).Idx → EReal) (r : Fin R) (d : Fin 256) :
    cellRows X H Wi Wh bi bh (ix2 r d)
      = cell (fun k => X (ix2 r k)) (fun k => H (ix2 r k)) Wi Wh bi bh d := rfl

end Cert.Gru

end
-- ==== Proof.GruSpellings.lean ====
/-
  The pieces of the gated update as the two programs spell them, each read at an entry on the extended reals, for any
  number of rows R.

  * A band of 256 columns cut out of an [R, 768] matrix by a unit-stride slice at column offset 0, 256 or 512 reads,
    at (r, d), the matrix at column d, 256 + d or 512 + d of row r.
  * A dense layer x · W + b with the bias a [1, 768] row reads, at (r, g), the sum over the contracted axis of
    x (r, k) · W (k, g) plus the row's entry g — in a kernel body's spelling (the left operand narrowed to bf16, a change
    of format that is the identity here; the product into the zero accumulator; the row repeated down the rows) and in
    the host's (a dot_general; the row repeated by a broadcast_in_dim with the identity axis map).
  * The gates in a kernel body's spelling (the logistic function as one operation, the constant one splat from a
    scalar) read, at (r, d), as the function `cellOf` of row r of the two pre-activation matrices.
-/
import Idealize.ShloMosaic.Lib.Pipeline.Value
import Idealize.ShloMosaic.Lib.ValueIdx
import Idealize.ShloMosaic.Lib.IdealHost
import Idealize.ShloMosaic.PureOps.Ideal.Laws
import proofs.«162463_j82944408420703_2_alg».proof.Proof.LibPlainMatmul
import proofs.«162463_j82944408420703_2_alg».proof.Proof.LibPlainDot
import proofs.«162463_j82944408420703_2_alg».proof.Proof.LibBlockLayout
import proofs.«162463_j82944408420703_2_alg».proof.Proof.LibHostRows
import proofs.«162463_j82944408420703_2_alg».proof.Proof.GruCell

noncomputable section

open scoped BigOperators

namespace Cert.Gru

open Idealize.ShloMosaic Idealize.ShloMosaic.ValueIdx

variable {R : ℕ}

/-! ## The three bands -/

theorem bandR_at {α : Type} (v : (⟨2, ![R, 768]⟩ : Shape).Idx → α)
    (h : (⟨2, ![R, 768]⟩ : Shape).Slices ![0, 0] ⟨2, ![R, 256]⟩) (r : Fin R) (d : Fin 256) :
    extractStridedSlice ⟨2, ![R, 256]⟩ ![0, 0] v h (ix2 r d) = v (ix2 r (colR d)) :=
  extractStridedSlice_apply ![0, 0] v h (ix2 r d) (ix2 r (colR d)) (fun a => match a with
    | ⟨0, _⟩ => by show r.val = 0 + r.val; omega
    | ⟨1, _⟩ => by show d.val = 0 + d.val; omega)

theorem bandZ_at {α : Type} (v : (⟨2, ![R, 768]⟩ : Shape).Idx → α)
    (h : (⟨2, ![R, 768]⟩ : Shape).Slices ![0, 256] ⟨2, ![R, 256]⟩) (r : Fin R) (d : Fin 256) :
    extractStridedSlice ⟨2, ![R, 256]⟩ ![0, 256] v h (ix2 r d) = v (ix2 r (colZ d)) :=
  extractStridedSlice_apply ![0, 256] v h (ix2 r d) (ix2 r (colZ d)) (fun a => match a with
    | ⟨0, _⟩ => by show r.val = 0 + r.val; omega
    | ⟨1, _⟩ => by show 256 + d.val = 256 + d.val; rfl)

theorem bandN_at {α : Type} (v : (⟨2, ![R, 768]⟩ : Shape).Idx → α)
    (h : (⟨2, ![R, 768]⟩ : Shape).Slices ![0, 512] ⟨2, ![R, 256]⟩) (r : Fin R) (d : Fin 256) :
    extractStridedSlice ⟨2, ![R, 256]⟩ ![0, 512] v h (ix2 r d) = v (ix2 r (colN d)) :=
  extractStridedSlice_apply ![0, 512] v h (ix2 r d) (ix2 r (colN d)) (fun a => match a with
    | ⟨0, _⟩ => by show r.val = 0 + r.val; omega
    | ⟨1, _⟩ => by show 512 + d.val = 512 + d.val; rfl)

/-! ## The dense layer -/

/-- A kernel body's spelling: the left operand narrowed to bf16, the weights already bf16 behind an identity cast,
    the product into the zero accumulator, the bias row behind an identity cast repeated down the rows. -/
theorem kernel_aff_at {K : ℕ} (A : FVec Ideal ⟨2, ![R, K]⟩ .f32) (W : FVec Ideal ⟨2, ![K, 768]⟩ .bf16)
    (b : FVec Ideal ⟨2, ![1, 768]⟩ .f32) (h1 : FTy.bf16.bits < FTy.f32.bits)
    (hW : (⟨2, ![K, 768]⟩ : Shape).ShapeCasts ⟨2, ![K, 768]⟩)
    (hc : (⟨2, ![1, 768]⟩ : Shape).ShapeCasts ⟨2, ![1, 768]⟩)
    (hb : (⟨2, ![1, 768]⟩ : Shape).Broadcasts ⟨2, ![R, 768]⟩) (r : Fin R) (g : Fin 768) :
    addf (matmul (DotDims.plain R K 768) none (truncf .bf16 A h1) (shapeCast ⟨2, ![K, 768]⟩ W hW)
          (constant ⟨2, ![R, 768]⟩ .f32 0x00000000#32))
        (broadcastTo ⟨2, ![R, 768]⟩ (shapeCast ⟨2, ![1, 768]⟩ b hc) hb) (ix2 r g)
      = aff (fun k => A (ix2 r k)) W b g := by
  rw [addf_apply, shapeCast_self, shapeCast_self]
  refine congrArg₂ (· + ·) ?_ ?_
  · exact Cert.LibPlainMatmul.matmul_zero_apply none (truncf .bf16 A h1) W r g
  · exact Cert.LibBlockLayout.rowBroadcast_at b hb r g

/-- The host's spelling: a dot_general plus the bias row repeated by a broadcast_in_dim. -/
theorem host_aff_at {K : ℕ} (A : FVec Ideal ⟨2, ![R, K]⟩ .f32) (W : FVec Ideal ⟨2, ![K, 768]⟩ .f32)
    (brow : FVec Ideal ⟨2, ![1, 768]⟩ .f32)
    (d2 : Fin (⟨2, ![1, 768]⟩ : Shape).rank → Fin (⟨2, ![R, 768]⟩ : Shape).rank) (hd20 : d2 0 = 0) (hd21 : d2 1 = 1)
    (hb2 : (⟨2, ![1, 768]⟩ : Shape).BroadcastsInDim ⟨2, ![R, 768]⟩ d2) (r : Fin R) (g : Fin 768) :
    addf (Host.dotGeneral (DotDims.plain R K 768) none A W) (broadcastInDim ⟨2, ![R, 768]⟩ d2 hb2 brow) (ix2 r g)
      = aff (fun k => A (ix2 r k)) W brow g := by
  rw [addf_apply]
  refine congrArg₂ (· + ·) ?_ ?_
  · exact Cert.LibPlainDot.dotGeneral_apply none A W r g
  · exact Cert.LibHostRows.bcast_1b_ab_at d2 hd20 hd21 hb2 brow r g

/-! ## The gates, a kernel body's spelling -/

theorem kernel_gates_at (gi gh : FVec Ideal ⟨2, ![R, 768]⟩ .f32) (hv : FVec Ideal ⟨2, ![R, 256]⟩ .f32)
    (h0 : (⟨2, ![R, 768]⟩ : Shape).Slices ![0, 0] ⟨2, ![R, 256]⟩)
    (h1 : (⟨2, ![R, 768]⟩ : Shape).Slices ![0, 256] ⟨2, ![R, 256]⟩)
    (h2 : (⟨2, ![R, 768]⟩ : Shape).Slices ![0, 512] ⟨2, ![R, 256]⟩) (r : Fin R) (d : Fin 256) :
    addf
        (mulf
          (subf (broadcast ⟨2, ![R, 256]⟩ (Scalar.ofBits (F := Ideal) .f32 0x3F800000#32))
            (logistic (addf (extractStridedSlice ⟨2, ![R, 256]⟩ ![0, 256] gi h1)
              (extractStridedSlice ⟨2, ![R, 256]⟩ ![0, 256] gh h1))))
          (tanh (addf (extractStridedSlice ⟨2, ![R, 256]⟩ ![0, 512] gi h2)
            (mulf
              (logistic (addf (extractStridedSlice ⟨2, ![R, 256]⟩ ![0, 0] gi h0)
                (extractStridedSlice ⟨2, ![R, 256]⟩ ![0, 0] gh h0)))
              (extractStridedSlice ⟨2, ![R, 256]⟩ ![0, 512] gh h2)))))
        (mulf
          (logistic (addf (extractStridedSlice ⟨2, ![R, 256]⟩ ![0, 256] gi h1)
            (extractStridedSlice ⟨2, ![R, 256]⟩ ![0, 256] gh h1)))
          hv) (ix2 r d)
      = cellOf (fun g => gi (ix2 r g)) (fun g => gh (ix2 r g)) (hv (ix2 r d)) d := by
  show (Ideal.ofBits .f32 0x3F800000#32
          - Ideal.logistic (extractStridedSlice ⟨2, ![R, 256]⟩ ![0, 256] gi h1 (ix2 r d)
              + extractStridedSlice ⟨2, ![R, 256]⟩ ![0, 256] gh h1 (ix2 r d)))
        * Ideal.tanh (extractStridedSlice ⟨2, ![R, 256]⟩ ![0, 512] gi h2 (ix2 r d)
            + Ideal.logistic (extractStridedSlice ⟨2, ![R, 256]⟩ ![0, 0] gi h0 (ix2 r d)
                + extractStridedSlice ⟨2, ![R, 256]⟩ ![0, 0] gh h0 (ix2 r d))
              * extractStridedSlice ⟨2, ![R, 256]⟩ ![0, 512] gh h2 (ix2 r d))
      + Ideal.logistic (extractStridedSlice ⟨2, ![R, 256]⟩ ![0, 256] gi h1 (ix2 r d)
            + extractStridedSlice ⟨2, ![R, 256]⟩ ![0, 256] gh h1 (ix2 r d))
          * hv (ix2 r d) = _
  rw [bandR_at gi h0, bandR_at gh h0, bandZ_at gi h1, bandZ_at gh h1, bandN_at gi h2, bandN_at gh h2,
    Ideal.ofBits_one_f32]
  rfl

end Cert.Gru

end
-- ==== Proof.KernelCell.lean ====
/-
  What the kernel body stores, read at an entry on the extended reals.

  The body loads a block of 1024 message rows and the matching block of 1024 gathered state rows, the two weight
  matrices (already bf16) and the two bias rows, forms the pre-activations  gi = x · Wi + bi  and  gh = h · Wh + bh
  as [1024, 768] matrices, cuts each into its three bands of 256 columns and stores  (1 - z) · n + z · h.  On the
  extended reals narrowing to bf16 is the identity and a product into the zero accumulator is the plain sum over the
  contracted axis, so entry (p, d) of the stored block is the gated cell of row p of the two loaded blocks.
-/
import proofs.«162463_j82944408420703_2_alg».proof.Proof.Gen.KernelIdeal.Skeleton
import proofs.«162463_j82944408420703_2_alg».proof.Proof.GruSpellings

noncomputable section

namespace Cert.KernelIdeal.Cell

open Cert.KernelIdeal Cert.KernelIdeal.Gen Idealize.ShloMosaic Idealize.ShloMosaic.ValueIdx

/-- The message rows' pre-activations as the body spells them: the block narrowed to bf16 times the weights, plus the
    bias row repeated down the rows. -/
abbrev giK (x0 : FVec Ideal S1024x685 .f32) (x2 : FVec Ideal S685x768 .bf16) (x4 : FVec Ideal S1x768 .f32) :
    FVec Ideal S1024x768 .f32 :=
  addf
    (matmul dot_S1024x685_S685x768_S1024x768_1_0_0_1_n_n none (truncf .bf16 x0 bitsLt_bf16_f32)
      (shapeCast S685x768 x2 shapeCasts_S685x768_S685x768) (constant S1024x768 .f32 0x00000000#32))
    (broadcastTo S1024x768 (shapeCast S1x768 x4 shapeCasts_S1x768_S1x768) broadcasts_S1x768_S1024x768)

/-- The state rows' pre-activations, the same way. -/
abbrev ghK (x1 : FVec Ideal S1024x256 .f32) (x3 : FVec Ideal S256x768 .bf16) (x5 : FVec Ideal S1x768 .f32) :
    FVec Ideal S1024x768 .f32 :=
  addf
    (matmul dot_S1024x256_S256x768_S1024x768_1_0_0_1_n_n none
      (truncf .bf16 (shapeCast S1024x256 x1 shapeCasts_S1024x256_S1024x256) bitsLt_bf16_f32)
      (shapeCast S256x768 x3 shapeCasts_S256x768_S256x768) (constant S1024x768 .f32 0x00000000#32))
    (broadcastTo S1024x768 (shapeCast S1x768 x5 shapeCasts_S1x768_S1x768) broadcasts_S1x768_S1024x768)

theorem giK_at (x0 : FVec Ideal S1024x685 .f32) (x2 : FVec Ideal S685x768 .bf16) (x4 : FVec Ideal S1x768 .f32)
    (p : Fin 1024) (g : Fin 768) :
    giK x0 x2 x4 (ix2 p g) = Cert.Gru.aff (fun k => x0 (ix2 p k)) x2 x4 g :=
  Cert.Gru.kernel_aff_at (R := 1024) (K := 685) x0 x2 x4 bitsLt_bf16_f32 shapeCasts_S685x768_S685x768
    shapeCasts_S1x768_S1x768 broadcasts_S1x768_S1024x768 p g

theorem ghK_at (x1 : FVec Ideal S1024x256 .f32) (x3 : FVec Ideal S256x768 .bf16) (x5 : FVec Ideal S1x768 .f32)
    (p : Fin 1024) (g : Fin 768) :
    ghK x1 x3 x5 (ix2 p g) = Cert.Gru.aff (fun k => x1 (ix2 p k)) x3 x5 g := by
  unfold ghK
  rw [shapeCast_self x1 shapeCasts_S1024x256_S1024x256]
  exact Cert.Gru.kernel_aff_at (R := 1024) (K := 256) x1 x3 x5 bitsLt_bf16_f32 shapeCasts_S256x768_S256x768
    shapeCasts_S1x768_S1x768 broadcasts_S1x768_S1024x768 p g

/-- Entry (p, d) of what the body stores: the cell of row p of the message block and of the state block. -/
theorem pay_at (x0 : FVec Ideal S1024x685 .f32) (x1 : FVec Ideal S1024x256 .f32) (x2 : FVec Ideal S685x768 .bf16)
    (x3 : FVec Ideal S256x768 .bf16) (x4 x5 : FVec Ideal S1x768 .f32) (p : Fin 1024) (d : Fin 256) :
    k0_pay1 (F := Ideal) x0 x1 x2 x3 x4 x5 (ix2 p d)
      = Cert.Gru.cell (fun k => x0 (ix2 p k)) (fun k => x1 (ix2 p k)) x2 x3 x4 x5 d := by
  unfold k0_pay1
  refine (Cert.Gru.kernel_gates_at (R := 1024) (giK x0 x2 x4) (ghK x1 x3 x5)
    (shapeCast S1024x256 x1 shapeCasts_S1024x256_S1024x256) slices_S1024x768_o0_0_S1024x256
    slices_S1024x768_o0_256_S1024x256 slices_S1024x768_o0_512_S1024x256 p d).trans ?_
  rw [shapeCast_self x1 shapeCasts_S1024x256_S1024x256]
  unfold Cert.Gru.cell
  exact congrArg₂ (fun a b => Cert.Gru.cellOf a b (x1 (ix2 p d)) d) (funext fun g => giK_at x0 x2 x4 p g)
    (funext fun g => ghK_at x1 x3 x5 p g)

end Cert.KernelIdeal.Cell

end
-- ==== Proof.KernelRows.lean ====
/-
  The array the region writes, as ONE function of the arrays it reads.

  The grid has 64 points; point t fetches rows 1024·t … 1024·t + 1023 of the messages and of the gathered state, the
  whole weight matrices and bias rows, and writes back rows 1024·t … 1024·t + 1023 of the new state. So what point t
  writes back is block t of  cellRows  of the six arrays as the region finds them: row 1024·t + p of the result is
  the gated cell of row 1024·t + p of the messages and of the gathered state. The 64 blocks tile the [65536, 256]
  array, so after the run the array IS that function.
-/
import proofs.«162463_j82944408420703_2_alg».proof.Proof.Gen.KernelIdeal.Frame
import proofs.«162463_j82944408420703_2_alg».proof.Proof.KernelCell
import Idealize.ShloMosaic.Lib.Pipeline.Value

set_option maxRecDepth 16384

noncomputable section

namespace Cert.KernelIdeal.Rows

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The new state rows as a function of the six arrays the region reads, as it finds them. -/
def newState (c : Dev nD) : S65536x256.Idx → EReal :=
  Cert.Gru.cellRows (V m c main_arg1) (V m c main_call0_v6) (V m c main_call0_v8) (V m c main_call0_v10)
    (V m c main_call0_v11) (V m c main_call0_v12)

/-- The printed index maps, decided over the grid: the message, state and result blocks move together, one block of
    1024 rows per point, and every other window stays on its one whole block. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 63 ∧ win0_6.index t (1 : Fin 2) = 0 :=
  (by decide +kernel : ∀ t : Fin grid0.N, _)

/-- Every block of 1024 rows is some point's. -/
theorem idx_onto : ∀ q : Fin 64, ∃ t : Fin cfg0.N, win0_6.index t = ![q.val, 0] :=
  (by decide +kernel : ∀ q : Fin 64, ∃ t : Fin grid0.N, win0_6.index t = ![q.val, 0])

/-- One stored entry against one entry of the whole-array function, for any blocks and arrays: they agree once the
    loaded blocks' row is the arrays' row and the column is the same. -/
theorem entry_eq (X0 : FVec Ideal S1024x685 .f32) (X1 : FVec Ideal S1024x256 .f32) (W2 : FVec Ideal S685x768 .bf16)
    (W3 : FVec Ideal S256x768 .bf16) (B4 B5 : FVec Ideal S1x768 .f32)
    (A0 : S65536x685.Idx → EReal) (A1 : S65536x256.Idx → EReal) (y : S1024x256.Idx) (i : S65536x256.Idx)
    (h0 : ∀ k : Fin 685, X0 (ix2 (y 0) k) = A0 (ix2 (i 0) k))
    (h1 : ∀ k : Fin 256, X1 (ix2 (y 0) k) = A1 (ix2 (i 0) k)) (hcol : (y 1).val = (i 1).val) :
    k0_pay1 (F := Ideal) X0 X1 W2 W3 B4 B5 y = Cert.Gru.cellRows A0 A1 W2 W3 B4 B5 i := by
  obtain ⟨p, d, rfl⟩ : ∃ (p : Fin 1024) (d : Fin 256), y = ix2 p d := ⟨y 0, y 1, eq_ix2 y⟩
  obtain ⟨e, d', rfl⟩ : ∃ (e : Fin 65536) (d' : Fin 256), i = ix2 e d' := ⟨i 0, i 1, eq_ix2 i⟩
  obtain rfl : d = d' := Fin.ext hcol
  rw [Cert.KernelIdeal.Cell.pay_at, Cert.Gru.cellRows_apply]
  have e0 : (fun k => X0 (ix2 p k)) = fun k => A0 (ix2 e k) := funext h0
  have e1 : (fun k => X1 (ix2 p k)) = fun k => A1 (ix2 e k) := funext h1
  rw [e0, e1]

/-- WHAT POINT t WRITES BACK is block t of the new state. -/
theorem flushed_eq (c : Dev nD) (t : Fin cfg0.N) :
    (dats m 0 c).flushed 6 t = ((cfg0.win 6).blk t).view.read (Elt Ideal) (newState m c) := by
  show (cfg0.win 6).cut (grid0.coords t) ((dats m 0 c).after 6 t) = _
  rw [after0_6]
  unfold out0_6
  rw [View.canon_unit_zero hz]
  simp only [View.ld_unit_zero (S := S1024x685) hz, View.ld_unit_zero (S := S1024x256) hz,
    View.ld_unit_zero (S := S685x768) hz, View.ld_unit_zero (S := S256x768) hz, View.ld_unit_zero (S := S1x768) hz]
  obtain ⟨a00, a01, a10, a11, a20, a21, a30, a31, a40, a41, a50, a51, a60, a61⟩ := idx_facts t
  have w2 : iblk m c 2 t = V m c main_call0_v8 := by
    funext y
    show V m c main_call0_v8 (((cfg0.win 2).blk t).view.emb y) = V m c main_call0_v8 y
    refine congrArg _ (funext fun a => Fin.ext ?_)
    match a with
    | ⟨0, _⟩ => show win0_2.index t (0 : Fin 2) * 685 + 1 * (y 0).val = (y 0).val; omega
    | ⟨1, _⟩ => show win0_2.index t (1 : Fin 2) * 768 + 1 * (y 1).val = (y 1).val; omega
  have w3 : iblk m c 3 t = V m c main_call0_v10 := by
    funext y
    show V m c main_call0_v10 (((cfg0.win 3).blk t).view.emb y) = V m c main_call0_v10 y
    refine congrArg _ (funext fun a => Fin.ext ?_)
    match a with
    | ⟨0, _⟩ => show win0_3.index t (0 : Fin 2) * 256 + 1 * (y 0).val = (y 0).val; omega
    | ⟨1, _⟩ => show win0_3.index t (1 : Fin 2) * 768 + 1 * (y 1).val = (y 1).val; omega
  have w4 : iblk m c 4 t = V m c main_call0_v11 := by
    funext y
    show V m c main_call0_v11 (((cfg0.win 4).blk t).view.emb y) = V m c main_call0_v11 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 768 + 1 * (y 1).val = (y 1).val; omega
  have w5 : iblk m c 5 t = V m c main_call0_v12 := by
    funext y
    show V m c main_call0_v12 (((cfg0.win 5).blk t).view.emb y) = V m c main_call0_v12 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 768 + 1 * (y 1).val = (y 1).val; omega
  rw [w2, w3, w4, w5]
  funext j
  show k0_pay1 (F := Ideal) (iblk m c 0 t) (iblk m c 1 t) (V m c main_call0_v8) (V m c main_call0_v10)
      (V m c main_call0_v11) (V m c main_call0_v12) j = newState m c (((cfg0.win 6).blk t).view.emb j)
  unfold newState
  refine entry_eq (iblk m c 0 t) (iblk m c 1 t) (V m c main_call0_v8) (V m c main_call0_v10) (V m c main_call0_v11)
    (V m c main_call0_v12) (V m c main_arg1) (V m c main_call0_v6) j (((cfg0.win 6).blk t).view.emb j) ?_ ?_ ?_
  · intro k
    show V m c main_arg1 (((cfg0.win 0).blk t).view.emb (ix2 (j 0) k))
      = V m c main_arg1 (ix2 ((((cfg0.win 6).blk t).view.emb j) 0) k)
    refine congrArg _ (funext fun a => Fin.ext ?_)
    match a with
    | ⟨0, _⟩ =>
      show win0_0.index t (0 : Fin 2) * 1024 + 1 * (j 0).val = win0_6.index t (0 : Fin 2) * 1024 + 1 * (j 0).val
      omega
    | ⟨1, _⟩ => show win0_0.index t (1 : Fin 2) * 685 + 1 * k.val = k.val; omega
  · intro k
    show V m c main_call0_v6 (((cfg0.win 1).blk t).view.emb (ix2 (j 0) k))
      = V m c main_call0_v6 (ix2 ((((cfg0.win 6).blk t).view.emb j) 0) k)
    refine congrArg _ (funext fun a => Fin.ext ?_)
    match a with
    | ⟨0, _⟩ =>
      show win0_1.index t (0 : Fin 2) * 1024 + 1 * (j 0).val = win0_6.index t (0 : Fin 2) * 1024 + 1 * (j 0).val
      omega
    | ⟨1, _⟩ => show win0_1.index t (1 : Fin 2) * 256 + 1 * k.val = k.val; omega
  · show (j 1).val = win0_6.index t (1 : Fin 2) * 256 + 1 * (j 1).val
    omega

/-- An index of the array is in point t's block iff each coordinate is in the block's range on its axis. -/
theorem mem_blk (t : Fin cfg0.N) (i : S65536x256.Idx) :
    i ∈ ((cfg0.win 6).blk t).view.set ↔ ∀ a : Fin 2, win0_6.index t a * S1024x256.size a ≤ (i a).val
      ∧ (i a).val < win0_6.index t a * S1024x256.size a + S1024x256.size a := by
  show i ∈ ((View.whole main_call0_v13).slice (win0_6.rect t)).set ↔ _
  rw [View.set_slice_whole, Rect.mem_set_unit]
  exact Iff.rfl

/-- Every row is in the block of the point its block of 1024 rows belongs to. -/
theorem cover (i : S65536x256.Idx) :
    ∃ t : Fin cfg0.N, (cfg0.win 6).flush t = true ∧ i ∈ ((cfg0.win 6).blk t).view.set := by
  have hi0 : (i 0).val < 65536 := (i 0).isLt
  have hi1 : (i 1).val < 256 := (i 1).isLt
  obtain ⟨t, ht⟩ := idx_onto ⟨(i 0).val / 1024, by omega⟩
  have q0 : win0_6.index t (0 : Fin 2) = (i 0).val / 1024 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 256 ≤ (i 1).val ∧ (i 1).val < win0_6.index t (1 : Fin 2) * 256 + 256
    omega

/-- THE ARRAY after the run is the new state. -/
theorem final (c : Dev nD) : (dats m 0 c).arrAt 6 cfg0.N = newState m c :=
  (dats m 0 c).arrAt_eq_of_cover 6 (newState m c) (fun t _ => flushed_eq m c t) (cover)

end Cert.KernelIdeal.Rows

end
-- ==== Proof.LibTypedRef.lean ====
/-
  A typed reference to a buffer (the handle an outlined function's operations use) moves contents between the value's
  type and the buffer's type along the equation of the two. Moving contents to the buffer's type and back gives them
  back unchanged, whatever the reference.
-/
import Idealize.ShloMosaic.Lib.StableHlo

namespace Cert.LibTypedRef

open Idealize.ShloMosaic Idealize.ShloMosaic.StableHlo

/-- Contents moved to a typed reference's buffer type and back are unchanged. -/
theorem ofBuf_toBuf {sig : RefSig} {T : BufTy} {Val : EltTy → Type} (x : TRef sig T) (v : T.Contents Val) :
    x.ofBuf (x.toBuf v) = v := by
  obtain ⟨ref, ty_eq, h1, h2⟩ := x
  subst ty_eq
  rfl

end Cert.LibTypedRef
-- ==== Proof.KernelRun.lean ====
/-
  The kernel program's run, read as values.

  Before the region @main computes the start-index column (a negative node index wrapped once by the table's height),
  gathers the state rows it names, transposes the two weight matrices and narrows them to bf16 (the identity here), and
  reshapes the two bias vectors into [1, 768] rows; after the region it computes the same column again and scatters
  the region's result rows back into the memory table, a later update of a row replacing an earlier one. The region's
  result is the gated cell of every row (the blocks-to-array module), so @main's result is that scatter of those rows.
-/
import proofs.«162463_j82944408420703_2_alg».proof.Proof.Gen.KernelIdeal.Frame
import proofs.«162463_j82944408420703_2_alg».proof.Proof.KernelRows
import proofs.«162463_j82944408420703_2_alg».proof.Proof.LibTypedRef
import Idealize.ShloMosaic.Lib.Pipeline.Value
import Idealize.ShloMosaic.Lib.StableHlo.Run

set_option maxRecDepth 16384

noncomputable section

namespace Cert.KernelIdeal.Run

open Cert.KernelIdeal Cert.KernelIdeal.Gen Idealize.ShloMosaic Idealize.ShloMosaic.TcCoe Idealize.ShloMosaic.ValueIdx
open Idealize.SL Idealize.SL.Sem Idealize.ShloMosaic.StableHlo
open Idealize.ShloMosaic.Pipeline (Dat Cfg Window)

/-- The start-index column: node index n read as n + 200000 when negative, as a [65536, 1] column. -/
def startCol (x2 : (⟨S65536, .i32⟩ : BufTy).Contents (Elt Ideal)) : (⟨S65536x1, .i32⟩ : BufTy).Contents (Elt Ideal) :=
  broadcastInDim S65536x1 ![0] bcast_S65536_S65536x1_0
    (select (cmpi .slt x2 (broadcastInDim S65536 ![] bcast_S_S65536 (constantI S_ 32 0#32)))
      (addi x2 (broadcastInDim S65536 ![] bcast_S_S65536 (constantI S_ 32 200000#32))) x2)

/-- The state rows the column names. -/
def gathered (x0 : (⟨S200000x256, .f32⟩ : BufTy).Contents (Elt Ideal)) (x2 : (⟨S65536, .i32⟩ : BufTy).Contents (Elt Ideal)) : (⟨S65536x256, .f32⟩ : BufTy).Contents (Elt Ideal) :=
  Host.gather gather_S200000x256_S65536x1_S65536x256_1_0_n_n_0_1_1256 x0 (startCol x2)

/-- Update rows written back into the table at the column's rows. -/
def scatterBack (x0 : (⟨S200000x256, .f32⟩ : BufTy).Contents (Elt Ideal)) (x2 : (⟨S65536, .i32⟩ : BufTy).Contents (Elt Ideal)) (u : (⟨S65536x256, .f32⟩ : BufTy).Contents (Elt Ideal)) :
    (⟨S200000x256, .f32⟩ : BufTy).Contents (Elt Ideal) :=
  Host.scatter scatter_S200000x256_S65536x1_S65536x256_1_0_0_1 (fun _ b => b) x0 (startCol x2) u

/-- The new state rows as a function of @main's arguments. -/
def newRows (x0 : (⟨S200000x256, .f32⟩ : BufTy).Contents (Elt Ideal)) (x1 : (⟨S65536x685, .f32⟩ : BufTy).Contents (Elt Ideal)) (x2 : (⟨S65536, .i32⟩ : BufTy).Contents (Elt Ideal))
    (x3 : (⟨S768x685, .f32⟩ : BufTy).Contents (Elt Ideal)) (x4 : (⟨S768x256, .f32⟩ : BufTy).Contents (Elt Ideal)) (x5 x6 : (⟨S768, .f32⟩ : BufTy).Contents (Elt Ideal)) : S65536x256.Idx → EReal :=
  Cert.Gru.cellRows (R := 65536) x1 (gathered x0 x2)
    (truncf (F := Ideal) (φ := .f32) .bf16 (transpose S685x768 [1, 0] x3 transposes_S768x685_S685x768_1_0) bitsLt_bf16_f32)
    (truncf (F := Ideal) (φ := .f32) .bf16 (transpose S256x768 [1, 0] x4 transposes_S768x256_S256x768_1_0) bitsLt_bf16_f32)
    (shapeCast S1x768 x5 shapeCasts_S768_S1x768) (shapeCast S1x768 x6 shapeCasts_S768_S1x768)

/-- @main's result as a function of its arguments. -/
def result (x0 : (⟨S200000x256, .f32⟩ : BufTy).Contents (Elt Ideal)) (x1 : (⟨S65536x685, .f32⟩ : BufTy).Contents (Elt Ideal)) (x2 : (⟨S65536, .i32⟩ : BufTy).Contents (Elt Ideal))
    (x3 : (⟨S768x685, .f32⟩ : BufTy).Contents (Elt Ideal)) (x4 : (⟨S768x256, .f32⟩ : BufTy).Contents (Elt Ideal)) (x5 x6 : (⟨S768, .f32⟩ : BufTy).Contents (Elt Ideal)) : (⟨S200000x256, .f32⟩ : BufTy).Contents (Elt Ideal) :=
  scatterBack x0 x2 (newRows x0 x1 x2 x3 x4 x5 x6)

variable (m : (ℓ : Loc nD τ sig) → Buf (Elt Ideal) ℓ)

/-! ## The arrays the region finds, as terms of the arguments -/

theorem v6_eq (c : Dev nD) : V m c main_call0_v6 = gathered (m ((c.tc : Thread nD τ).loc main_arg0)) (m ((c.tc : Thread nD τ).loc main_arg2)) := by
  show StableHlo.after hostOps0 (fun b => m (c, b)) (Proc.devRef .tc main_call0_v6) = _
  after_results_simp
  rfl

theorem v8_eq (c : Dev nD) : V m c main_call0_v8
    = truncf (F := Ideal) (φ := .f32) .bf16
        (transpose S685x768 [1, 0] (m ((c.tc : Thread nD τ).loc main_arg3)) transposes_S768x685_S685x768_1_0) bitsLt_bf16_f32 := by
  show StableHlo.after hostOps0 (fun b => m (c, b)) (Proc.devRef .tc main_call0_v8) = _
  after_results_simp
  rfl

theorem v10_eq (c : Dev nD) : V m c main_call0_v10
    = truncf (F := Ideal) (φ := .f32) .bf16
        (transpose S256x768 [1, 0] (m ((c.tc : Thread nD τ).loc main_arg4)) transposes_S768x256_S256x768_1_0) bitsLt_bf16_f32 := by
  show StableHlo.after hostOps0 (fun b => m (c, b)) (Proc.devRef .tc main_call0_v10) = _
  after_results_simp
  rfl

theorem v11_eq (c : Dev nD) : V m c main_call0_v11 = shapeCast S1x768 (m ((c.tc : Thread nD τ).loc main_arg5)) shapeCasts_S768_S1x768 := by
  show StableHlo.after hostOps0 (fun b => m (c, b)) (Proc.devRef .tc main_call0_v11) = _
  after_results_simp
  rfl

theorem v12_eq (c : Dev nD) : V m c main_call0_v12 = shapeCast S1x768 (m ((c.tc : Thread nD τ).loc main_arg6)) shapeCasts_S768_S1x768 := by
  show StableHlo.after hostOps0 (fun b => m (c, b)) (Proc.devRef .tc main_call0_v12) = _
  after_results_simp
  rfl

/-- The region's result array after the run, as a function of the arguments. -/
theorem newState_eq (c : Dev nD) : Cert.KernelIdeal.Rows.newState m c = newRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.KernelIdeal.Rows.newState newRows
  rw [V_main_arg1 m c, v6_eq m c, v8_eq m c, v10_eq m c, v11_eq m c, v12_eq m c]

/-! ## The lines after the region -/

/-- The lines after the region, run from ANY contents W: the result is the scatter, into W's memory table at W's node
    indices, of W's region result. -/
theorem tail_of (W : Valuation τ sig (Elt Ideal)) :
    StableHlo.after hostOps1 W (Proc.devRef .tc main_v0)
      = scatterBack (W (Proc.devRef .tc main_arg0)) (W (Proc.devRef .tc main_arg2)) (W (Proc.devRef .tc main_call0_v13)) := by
  after_results_simp
  simp only [Cert.LibTypedRef.ofBuf_toBuf]
  -- the result buffer's contents are the scatter moved along an equation of its type with itself
  refine eq_of_heq ((cast_heq _ _).trans (heq_of_eq ?_))
  unfold scatterBack startCol
  rfl

/-- The contents the tail runs from: the region's arrays as the run leaves them, everything else as the region found it. -/
abbrev Wt (c : Dev nD) : Valuation τ sig (Elt Ideal) :=
  Pipeline.withArrays (cfgs 0).spec c (V0 m c) fun w => (dats m 0 c).arrAt w (cfgs 0).N

theorem tail_eq (c : Dev nD) :
    Pipeline.afterTail₀ cfgs (dats m) 0 (V0 m) [hostOps1] c main_v0 = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  show StableHlo.after hostOps1 (Wt m c) (Proc.devRef .tc main_v0) = _
  have e0 : Wt m c (Proc.devRef .tc main_arg0) = (m ((c.tc : Thread nD τ).loc main_arg0)) :=
    (Pipeline.withArrays_of_ne _ c (V0 m c) _ main_arg0 (by exact (by decide : ∀ w, Pipeline.arrRef spec0 w ≠ main_arg0))).trans
      (V_main_arg0 m c)
  have e2 : Wt m c (Proc.devRef .tc main_arg2) = (m ((c.tc : Thread nD τ).loc main_arg2)) :=
    (Pipeline.withArrays_of_ne _ c (V0 m c) _ main_arg2 (by exact (by decide : ∀ w, Pipeline.arrRef spec0 w ≠ main_arg2))).trans
      (V_main_arg2 m c)
  have e13 : Wt m c (Proc.devRef .tc main_call0_v13) = newRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
    ((Pipeline.withArrays_arr spec0 launch0.win.arr_inj c _ _ 6).trans (Cert.KernelIdeal.Rows.final m c)).trans
      (newState_eq m c)
  rw [tail_of, e0, e2, e13]
  rfl

/-! ## The run -/

/-- Every weakly fair execution of the kernel program terminates with its result at the scatter of the new state rows
    and its arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v0) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v0 (Pipeline.mem_restRefs_of main_v0 (by decide) (by decide))).trans (tail_eq m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Run

end
-- ==== Proof.RefCell.lean ====
/-
  The reference's new state rows, read at an entry on the extended reals.

  The reference forms  gi = messages · W_ihᵀ + b_ih  and  gh = h · W_hhᵀ + b_hh  over all 65536 rows at once (h the
  gathered state rows), cuts each into its three bands and applies the gates with the logistic function spelt
  1 / (1 + e⁻ᵗ). On the extended reals that quotient IS the logistic function, so entry (e, d) of its new state is the
  gated cell of row e of the messages and of the gathered state.
-/
import proofs.«162463_j82944408420703_2_alg».proof.Proof.Gen.ReferenceIdeal.Read
import proofs.«162463_j82944408420703_2_alg».proof.Proof.GruSpellings

noncomputable section

namespace Cert.ReferenceIdeal.RefValue

open Cert.ReferenceIdeal Cert.ReferenceIdeal.Gen Cert.ReferenceIdeal.Read Idealize.ShloMosaic Idealize.ShloMosaic.ValueIdx

/-- The message rows' pre-activations at an entry. -/
theorem gi_at (x1 : (⟨S65536x685, .f32⟩ : BufTy).Contents (Elt Ideal)) (x3 : (⟨S768x685, .f32⟩ : BufTy).Contents (Elt Ideal)) (x5 : (⟨S768, .f32⟩ : BufTy).Contents (Elt Ideal)) (e : Fin 65536) (g : Fin 768) :
    val_main_v11 (F := Ideal) x1 x3 x5 (ix2 e g)
      = Cert.Gru.aff (fun k => x1 (ix2 e k)) (val_main_v7 (F := Ideal) x3) (val_main_v9 (F := Ideal) x5) g := by
  unfold val_main_v11 val_main_v8 val_main_v10
  exact Cert.Gru.host_aff_at (R := 65536) (K := 685) x1 (val_main_v7 (F := Ideal) x3) (val_main_v9 (F := Ideal) x5)
    ![0, 1] rfl rfl bcast_S1x768_S65536x768_0_1 e g

/-- The gathered state rows' pre-activations at an entry. -/
theorem gh_at (x0 : (⟨S200000x256, .f32⟩ : BufTy).Contents (Elt Ideal)) (x2 : (⟨S65536, .i32⟩ : BufTy).Contents (Elt Ideal)) (x4 : (⟨S768x256, .f32⟩ : BufTy).Contents (Elt Ideal)) (x6 : (⟨S768, .f32⟩ : BufTy).Contents (Elt Ideal)) (e : Fin 65536) (g : Fin 768) :
    val_main_v16 (F := Ideal) x0 x2 x4 x6 (ix2 e g)
      = Cert.Gru.aff (fun k => val_main_v6 (F := Ideal) x0 x2 (ix2 e k)) (val_main_v12 (F := Ideal) x4)
          (val_main_v14 (F := Ideal) x6) g := by
  unfold val_main_v16 val_main_v13 val_main_v15
  exact Cert.Gru.host_aff_at (R := 65536) (K := 256) (val_main_v6 (F := Ideal) x0 x2) (val_main_v12 (F := Ideal) x4)
    (val_main_v14 (F := Ideal) x6) ![0, 1] rfl rfl bcast_S1x768_S65536x768_0_1 e g

/-- The gates at an entry: the bands by their columns, the quotient 1 / (1 + e⁻ᵗ) as the logistic function. -/
theorem gates_at (x0 : (⟨S200000x256, .f32⟩ : BufTy).Contents (Elt Ideal)) (x1 : (⟨S65536x685, .f32⟩ : BufTy).Contents (Elt Ideal)) (x2 : (⟨S65536, .i32⟩ : BufTy).Contents (Elt Ideal)) (x3 : (⟨S768x685, .f32⟩ : BufTy).Contents (Elt Ideal)) (x4 : (⟨S768x256, .f32⟩ : BufTy).Contents (Elt Ideal)) (x5 : (⟨S768, .f32⟩ : BufTy).Contents (Elt Ideal)) (x6 : (⟨S768, .f32⟩ : BufTy).Contents (Elt Ideal)) (e : Fin 65536) (d : Fin 256) :
    val_main_v44 (F := Ideal) x0 x1 x2 x3 x4 x5 x6 (ix2 e d)
      = Cert.Gru.cellOf (fun g => val_main_v11 (F := Ideal) x1 x3 x5 (ix2 e g))
          (fun g => val_main_v16 (F := Ideal) x0 x2 x4 x6 (ix2 e g)) (val_main_v6 (F := Ideal) x0 x2 (ix2 e d)) d := by
  have i17 : idx_main_v17 (ix2 e d) = ix2 e (Cert.Gru.colR d) :=
    funext fun a => Fin.ext (by match a with | ⟨0, _⟩ => rfl | ⟨1, _⟩ => rfl)
  have i18 : idx_main_v18 (ix2 e d) = ix2 e (Cert.Gru.colZ d) :=
    funext fun a => Fin.ext (by match a with | ⟨0, _⟩ => rfl | ⟨1, _⟩ => rfl)
  have i19 : idx_main_v19 (ix2 e d) = ix2 e (Cert.Gru.colN d) :=
    funext fun a => Fin.ext (by match a with | ⟨0, _⟩ => rfl | ⟨1, _⟩ => rfl)
  have i20 : idx_main_v20 (ix2 e d) = ix2 e (Cert.Gru.colR d) :=
    funext fun a => Fin.ext (by match a with | ⟨0, _⟩ => rfl | ⟨1, _⟩ => rfl)
  have i21 : idx_main_v21 (ix2 e d) = ix2 e (Cert.Gru.colZ d) :=
    funext fun a => Fin.ext (by match a with | ⟨0, _⟩ => rfl | ⟨1, _⟩ => rfl)
  have i22 : idx_main_v22 (ix2 e d) = ix2 e (Cert.Gru.colN d) :=
    funext fun a => Fin.ext (by match a with | ⟨0, _⟩ => rfl | ⟨1, _⟩ => rfl)
  simp only [val_main_v44_apply, val_main_v42_apply, val_main_v43_apply, val_main_v41_apply, val_main_v40_apply, val_main_cst_4_apply, val_main_v39_apply, val_main_v38_apply, val_main_v37_apply, val_main_v36_apply, val_main_v35_apply, val_main_cst_3_apply, val_main_v34_apply, val_main_v33_apply, val_main_cst_2_apply, val_main_v32_apply, val_main_v31_apply, val_main_v30_apply, val_main_v29_apply, val_main_v28_apply, val_main_cst_1_apply, val_main_v27_apply, val_main_v26_apply, val_main_cst_apply, val_main_v25_apply, val_main_v24_apply, val_main_v23_apply, val_main_v22_apply, val_main_v21_apply, val_main_v20_apply, val_main_v19_apply, val_main_v18_apply, val_main_v17_apply, i17, i18, i19, i20, i21, i22]
  have one : FloatOps.ofBits (F := Ideal) .f32 0x3F800000#32 = (1 : EReal) := Ideal.ofBits_one_f32
  rw [one]
  rfl

/-- The reference's new state IS the gated cell of every row: the whole-array function the kernel's region computes. -/
theorem new_eq (x0 : (⟨S200000x256, .f32⟩ : BufTy).Contents (Elt Ideal)) (x1 : (⟨S65536x685, .f32⟩ : BufTy).Contents (Elt Ideal)) (x2 : (⟨S65536, .i32⟩ : BufTy).Contents (Elt Ideal)) (x3 : (⟨S768x685, .f32⟩ : BufTy).Contents (Elt Ideal)) (x4 : (⟨S768x256, .f32⟩ : BufTy).Contents (Elt Ideal)) (x5 : (⟨S768, .f32⟩ : BufTy).Contents (Elt Ideal)) (x6 : (⟨S768, .f32⟩ : BufTy).Contents (Elt Ideal)) :
    val_main_v44 (F := Ideal) x0 x1 x2 x3 x4 x5 x6
      = Cert.Gru.cellRows (R := 65536) x1 (val_main_v6 (F := Ideal) x0 x2) (val_main_v7 (F := Ideal) x3)
          (val_main_v12 (F := Ideal) x4) (val_main_v9 (F := Ideal) x5) (val_main_v14 (F := Ideal) x6) := by
  funext i
  obtain ⟨e, d, rfl⟩ : ∃ (e : Fin 65536) (d : Fin 256), i = ix2 e d := ⟨i 0, i 1, eq_ix2 i⟩
  rw [gates_at, Cert.Gru.cellRows_apply]
  unfold Cert.Gru.cell
  exact congrArg₂ (fun a b => Cert.Gru.cellOf a b (val_main_v6 (F := Ideal) x0 x2 (ix2 e d)) d)
    (funext fun g => gi_at x1 x3 x5 e g) (funext fun g => gh_at x0 x2 x4 x6 e g)

end Cert.ReferenceIdeal.RefValue

end
-- ==== Proof.LibDenseLayers.lean ====
/-
  One dense layer, x · W + b, read at an entry on the extended reals, in the two spellings it has here: a pipelined
  kernel body's (a matrix product of the operands narrowed to bf16 into the zero accumulator, plus the bias row kept as a
  [1, N] block and repeated down the rows) and a host program's (a dot_general plus the same row repeated by a
  broadcast_in_dim).  On the extended reals a change of float format is the identity and both products are the plain
  sum over the contracted axis, so both spellings read, at (r, g), as  Σₖ x (r, k) · W (k, g) + b (0, g).

  For any extents R, K, N.  Also here: the same for a second product h · W without bias (`dotAt`), the host's zero
  matrix read at an entry, a bias vector made a [1, N] row by a reshape against the row a broadcast_in_dim along axis 1
  makes of it (`row_of_vector`), and the whole-matrix layer functions the entries belong to: x · W + b (`affLayer`),
  its rectification (`projLayer`) and the rectified two-input layer (a · Wl + b) + h · Wr (`sageLayer`).
-/
import Idealize.ShloMosaic.Lib.Pipeline.Value
import Idealize.ShloMosaic.Lib.ValueIdx
import Idealize.ShloMosaic.PureOps.Ideal.Laws
import proofs.«162463_j82944408420703_2_alg».proof.Proof.LibPlainMatmul
import proofs.«162463_j82944408420703_2_alg».proof.Proof.LibPlainDot
import proofs.«162463_j82944408420703_2_alg».proof.Proof.LibHostRows
import proofs.«162463_j82944408420703_2_alg».proof.Proof.LibBlockLayout

noncomputable section

open scoped BigOperators

namespace Cert.SageLayers

open Idealize.ShloMosaic Idealize.ShloMosaic.ValueIdx

variable {R K N : ℕ}

/-- Entry (r, g) of x · W + b, the bias a [1, N] row. -/
def affineAt (A : (⟨2, ![R, K]⟩ : Shape).Idx → EReal) (W : (⟨2, ![K, N]⟩ : Shape).Idx → EReal)
    (b : (⟨2, ![1, N]⟩ : Shape).Idx → EReal) (r : Fin R) (g : Fin N) : EReal :=
  (∑ k : Fin K, A (ix2 r k) * W (ix2 k g)) + b (ix2 (0 : Fin 1) g)

/-- The zero word of f32, on the extended reals. -/
abbrev zeroF : EReal := Ideal.ofBits .f32 0x00000000#32

/-- Entry (r, g) of h · W. -/
def dotAt (H : (⟨2, ![R, K]⟩ : Shape).Idx → EReal) (W : (⟨2, ![K, N]⟩ : Shape).Idx → EReal) (r : Fin R) (g : Fin N) : EReal :=
  ∑ k : Fin K, H (ix2 r k) * W (ix2 k g)

/-- The layer x · W + b as a whole matrix. -/
def affLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => affineAt A W b (i 0) (i 1)

/-- The rectified layer max (x · W + b, 0) as a whole matrix. -/
def projLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => max (affineAt A W b (i 0) (i 1)) zeroF

/-- The rectified two-input layer max ((a · Wl + b) + h · Wr, 0) as a whole matrix. -/
def sageLayer {K' : ℕ} (A : (⟨2, ![R, K]⟩ : Shape).Idx → EReal) (H : (⟨2, ![R, K']⟩ : Shape).Idx → EReal)
    (Wl : (⟨2, ![K, N]⟩ : Shape).Idx → EReal) (b : (⟨2, ![1, N]⟩ : Shape).Idx → EReal)
    (Wr : (⟨2, ![K', N]⟩ : Shape).Idx → EReal) : (⟨2, ![R, N]⟩ : Shape).Idx → EReal :=
  fun i => max (affineAt A Wl b (i 0) (i 1) + dotAt H Wr (i 0) (i 1)) zeroF

/-- The kernel body's second product, read at an entry. -/
theorem kernel_dot_at (H : FVec Ideal ⟨2, ![R, K]⟩ .f32) (W : FVec Ideal ⟨2, ![K, N]⟩ .f32)
    (h1 : FTy.bf16.bits < FTy.f32.bits) (h2 : FTy.bf16.bits < FTy.f32.bits) (r : Fin R) (g : Fin N) :
    matmul (DotDims.plain R K N) none (truncf .bf16 H h1) (truncf .bf16 W h2) (constant ⟨2, ![R, N]⟩ .f32 0x00000000#32) (ix2 r g)
      = dotAt H W r g :=
  Cert.LibPlainMatmul.matmul_zero_apply none (truncf .bf16 H h1) (truncf .bf16 W h2) r g

/-- The host's product read at an entry. -/
theorem host_dot_at (H : FVec Ideal ⟨2, ![R, K]⟩ .f32) (W : FVec Ideal ⟨2, ![K, N]⟩ .f32) (r : Fin R) (g : Fin N) :
    Host.dotGeneral (DotDims.plain R K N) none H W (ix2 r g) = dotAt H W r g :=
  Cert.LibPlainDot.dotGeneral_apply none H W r g

/-- The host's zero matrix read at an entry. -/
theorem host_zero_at {s : Shape} (d : Fin (⟨0, ![]⟩ : Shape).rank → Fin s.rank) (hb : (⟨0, ![]⟩ : Shape).BroadcastsInDim s d)
    (i : s.Idx) : broadcastInDim s d hb (constant (F := Ideal) ⟨0, ![]⟩ .f32 0x00000000#32) i = zeroF :=
  broadcastInDim_apply d hb _ i ix0 (fun a => a.elim0)

/-- The kernel body's spelling of the layer before its rectifier. -/
theorem kernel_affine_at (A : FVec Ideal ⟨2, ![R, K]⟩ .f32) (W : FVec Ideal ⟨2, ![K, N]⟩ .f32)
    (b : FVec Ideal ⟨2, ![1, N]⟩ .f32) (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![R, N]⟩)
    (r : Fin R) (g : Fin N) :
    addf (matmul (DotDims.plain R K N) none (truncf .bf16 A h1) (truncf .bf16 W h2) (constant ⟨2, ![R, N]⟩ .f32 0x00000000#32))
        (broadcastTo ⟨2, ![R, N]⟩ (shapeCast ⟨2, ![1, N]⟩ b hc) hb) (ix2 r g)
      = affineAt A W b r g := by
  rw [addf_apply]
  refine congrArg₂ (· + ·) ?_ ?_
  · exact Cert.LibPlainMatmul.matmul_zero_apply none (truncf .bf16 A h1) (truncf .bf16 W h2) r g
  · rw [Cert.LibBlockLayout.rowBroadcast_at, shapeCast_self]

/-- The host's spelling of the layer before its rectifier, the bias given as a vector. -/
theorem host_affine_at (A : FVec Ideal ⟨2, ![R, K]⟩ .f32) (W : FVec Ideal ⟨2, ![K, N]⟩ .f32)
    (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (r : Fin R) (g : Fin N) :
    addf (Host.dotGeneral (DotDims.plain R K N) none A W)
        (broadcastInDim ⟨2, ![R, N]⟩ d2 hb2 (broadcastInDim ⟨2, ![1, N]⟩ d1 hb1 b)) (ix2 r g)
      = affineAt A W (broadcastInDim ⟨2, ![1, N]⟩ d1 hb1 b) r g := by
  rw [addf_apply]
  refine congrArg₂ (· + ·) ?_ ?_
  · exact Cert.LibPlainDot.dotGeneral_apply none A W r g
  · exact Cert.LibHostRows.bcast_1b_ab_at d2 hd20 hd21 hb2 _ r g

/-- A vector kept as a [1, N] row by a reshape is the same row a broadcast_in_dim along axis 1 makes of it. -/
theorem row_of_vector (b : (⟨1, ![N]⟩ : Shape).Idx → EReal)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (hc : (⟨1, ![N]⟩ : Shape).ShapeCasts ⟨2, ![1, N]⟩) :
    broadcastInDim ⟨2, ![1, N]⟩ d1 hb1 b = shapeCast ⟨2, ![1, N]⟩ b hc := by
  funext i
  obtain ⟨u, j, rfl⟩ : ∃ (u : Fin 1) (j : Fin N), i = ix2 u j := ⟨i 0, i 1, eq_ix2 i⟩
  rw [Cert.LibHostRows.bcast_b_1b_at d1 hd1 hb1 b u j]
  refine (shapeCast_apply b hc (ix2 u j) (ix1 j) ?_).symm
  rw [Shape.rowMajor_val_one, Shape.rowMajor_val_two]
  have hu : u.val = 0 := by omega
  show j.val = u.val * N + j.val
  rw [hu, Nat.zero_mul, Nat.zero_add]

end Cert.SageLayers

end
-- ==== Proof.Bridge.lean ====
/-
  The two programs compute one function of their arguments.

  Both end by scattering 65536 new state rows into the memory table at the rows the node indices name, and both read
  the old state rows by a gather at the same start-index column. So it is enough that the new state rows agree as
  whole arrays. The reference's are the gated cell of every row of the messages and of the gathered state, with the
  transposed weight matrices and the bias vectors broadcast into [1, 768] rows; the kernel program's are the same
  cell with the transposed matrices narrowed to bf16 — the identity on the extended reals — and the bias vectors
  reshaped into [1, 768] rows, and a [768] vector reshaped to a [1, 768] row IS the row its broadcast along axis 1 makes.
-/
import proofs.«162463_j82944408420703_2_alg».proof.Proof.KernelRun
import proofs.«162463_j82944408420703_2_alg».proof.Proof.RefCell
import proofs.«162463_j82944408420703_2_alg».proof.Proof.LibDenseLayers

noncomputable section

namespace Cert.Bridge

open Idealize.ShloMosaic Idealize.ShloMosaic.ValueIdx

/-- The two programs name the same gather … -/
theorem gdims_eq : Cert.ReferenceIdeal.gather_S200000x256_S65536x1_S65536x256_1_0_n_n_0_1_1256
    = Cert.KernelIdeal.gather_S200000x256_S65536x1_S65536x256_1_0_n_n_0_1_1256 := rfl

/-- … and the same scatter. -/
theorem sdims_eq : Cert.ReferenceIdeal.scatter_S200000x256_S65536x1_S65536x256_1_0_0_1
    = Cert.KernelIdeal.scatter_S200000x256_S65536x1_S65536x256_1_0_0_1 := rfl

/-- The reference's start-index column for its gather is the kernel program's … -/
theorem col_gather (x2 : (⟨Cert.ReferenceIdeal.S65536, .i32⟩ : BufTy).Contents (Elt Ideal)) :
    Cert.ReferenceIdeal.Read.val_main_v5 (F := Ideal) x2 = Cert.KernelIdeal.Run.startCol x2 := rfl

/-- … and so is the one for its scatter. -/
theorem col_scatter (x2 : (⟨Cert.ReferenceIdeal.S65536, .i32⟩ : BufTy).Contents (Elt Ideal)) :
    Cert.ReferenceIdeal.Read.val_main_v50 (F := Ideal) x2 = Cert.KernelIdeal.Run.startCol x2 := rfl

/-- The gathered state rows agree. -/
theorem gathered_eq (x0 : (⟨Cert.ReferenceIdeal.S200000x256, .f32⟩ : BufTy).Contents (Elt Ideal)) (x2 : (⟨Cert.ReferenceIdeal.S65536, .i32⟩ : BufTy).Contents (Elt Ideal)) :
    Cert.ReferenceIdeal.Read.val_main_v6 (F := Ideal) x0 x2 = Cert.KernelIdeal.Run.gathered x0 x2 := by
  unfold Cert.ReferenceIdeal.Read.val_main_v6 Cert.KernelIdeal.Run.gathered
  rw [col_gather, gdims_eq]

/-- Narrowing the transposed message weights to bf16 changes nothing here. -/
theorem wih_eq (x3 : (⟨Cert.ReferenceIdeal.S768x685, .f32⟩ : BufTy).Contents (Elt Ideal)) :
    Cert.ReferenceIdeal.Read.val_main_v7 (F := Ideal) x3
      = truncf (F := Ideal) (φ := .f32) .bf16
          (transpose Cert.KernelIdeal.S685x768 [1, 0] x3 Cert.KernelIdeal.Gen.transposes_S768x685_S685x768_1_0)
          Cert.KernelIdeal.Gen.bitsLt_bf16_f32 := rfl

/-- Nor the transposed state weights. -/
theorem whh_eq (x4 : (⟨Cert.ReferenceIdeal.S768x256, .f32⟩ : BufTy).Contents (Elt Ideal)) :
    Cert.ReferenceIdeal.Read.val_main_v12 (F := Ideal) x4
      = truncf (F := Ideal) (φ := .f32) .bf16
          (transpose Cert.KernelIdeal.S256x768 [1, 0] x4 Cert.KernelIdeal.Gen.transposes_S768x256_S256x768_1_0)
          Cert.KernelIdeal.Gen.bitsLt_bf16_f32 := rfl

/-- The message bias as a [1, 768] row: broadcast along axis 1, or reshaped. -/
theorem bih_eq (x5 : (⟨Cert.ReferenceIdeal.S768, .f32⟩ : BufTy).Contents (Elt Ideal)) :
    Cert.ReferenceIdeal.Read.val_main_v9 (F := Ideal) x5
      = shapeCast Cert.KernelIdeal.S1x768 x5 Cert.KernelIdeal.Gen.shapeCasts_S768_S1x768 :=
  Cert.SageLayers.row_of_vector (N := 768) x5 ![1] rfl Cert.ReferenceIdeal.Gen.bcast_S768_S1x768_1
    Cert.KernelIdeal.Gen.shapeCasts_S768_S1x768

/-- The state bias, the same way. -/
theorem bhh_eq (x6 : (⟨Cert.ReferenceIdeal.S768, .f32⟩ : BufTy).Contents (Elt Ideal)) :
    Cert.ReferenceIdeal.Read.val_main_v14 (F := Ideal) x6
      = shapeCast Cert.KernelIdeal.S1x768 x6 Cert.KernelIdeal.Gen.shapeCasts_S768_S1x768 :=
  Cert.SageLayers.row_of_vector (N := 768) x6 ![1] rfl Cert.ReferenceIdeal.Gen.bcast_S768_S1x768_1
    Cert.KernelIdeal.Gen.shapeCasts_S768_S1x768

/-- THE BRIDGE: the reference's result and the kernel program's are one function of the seven arguments. -/
theorem result_eq (x0 : (⟨Cert.ReferenceIdeal.S200000x256, .f32⟩ : BufTy).Contents (Elt Ideal)) (x1 : (⟨Cert.ReferenceIdeal.S65536x685, .f32⟩ : BufTy).Contents (Elt Ideal)) (x2 : (⟨Cert.ReferenceIdeal.S65536, .i32⟩ : BufTy).Contents (Elt Ideal))
    (x3 : (⟨Cert.ReferenceIdeal.S768x685, .f32⟩ : BufTy).Contents (Elt Ideal)) (x4 : (⟨Cert.ReferenceIdeal.S768x256, .f32⟩ : BufTy).Contents (Elt Ideal)) (x5 x6 : (⟨Cert.ReferenceIdeal.S768, .f32⟩ : BufTy).Contents (Elt Ideal)) :
    Cert.ReferenceIdeal.Read.val_main_v51 (F := Ideal) x0 x1 x2 x3 x4 x5 x6
      = Cert.KernelIdeal.Run.result x0 x1 x2 x3 x4 x5 x6 := by
  unfold Cert.ReferenceIdeal.Read.val_main_v51 Cert.KernelIdeal.Run.result Cert.KernelIdeal.Run.scatterBack
    Cert.KernelIdeal.Run.newRows
  rw [Cert.ReferenceIdeal.RefValue.new_eq, col_scatter, sdims_eq, gathered_eq, wih_eq, whh_eq, bih_eq, bhh_eq]

end Cert.Bridge

end
-- ==== Proof.lean ====
/-
  The certificate of a gated-recurrent-unit memory update against its reference.

  Both programs read 65536 rows of a 200000-row memory table by a gather at the node indices, send each gathered row
  and its message row through one step of a gated recurrent unit, and scatter the new rows back into the table. The
  kernel program does the unit's arithmetic in a region of 64 grid points, 1024 rows each, with bf16 operands for its
  two matrix products and the logistic function as one operation; the reference does it on whole arrays with f32
  products and the logistic function spelt 1 / (1 + e⁻ᵗ). On the extended reals the two are one function of the
  arguments: a change of float format is the identity, a product into the zero accumulator and a dot_general are the
  same sum over the contracted axis, and the quotient IS the logistic function. No algebraic law beyond that is
  used, so the precondition is never opened.

  The three frames are the generated ones (the reference's is its generated run with the result dropped), the
  idealization rewrote nothing, and the value claim joins the kernel program's run (the region's array as one
  function of the arguments, then the lines after it) to the reference's generated run through the bridge.
-/
import proofs.«162463_j82944408420703_2_alg».proof.Defs
import proofs.«162463_j82944408420703_2_alg».proof.Proof.Gen.Kernel
import proofs.«162463_j82944408420703_2_alg».proof.Proof.Gen.Kernel.Frame
import proofs.«162463_j82944408420703_2_alg».proof.Proof.Gen.KernelIdeal
import proofs.«162463_j82944408420703_2_alg».proof.Proof.Gen.KernelIdeal.Frame
import proofs.«162463_j82944408420703_2_alg».proof.Proof.Gen.ReferenceIdeal
import proofs.«162463_j82944408420703_2_alg».proof.Proof.Gen.ReferenceIdeal.Run
import proofs.«162463_j82944408420703_2_alg».proof.Proof.Gen.ReferenceIdeal.Read
import proofs.«162463_j82944408420703_2_alg».proof.Proof.Gen.Pre_finite_inputs
import proofs.«162463_j82944408420703_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the scatter of the gated cell's rows: the kernel program's run states it, and the reference's
    generated run's term is the same function of arguments that agree. -/
theorem algebraic : Cert.algebraic_KernelIdeal_ReferenceIdeal := by
  intro m ρ m' ρ' _ hagree
  refine ⟨fun c => Cert.KernelIdeal.Run.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, (hagree c).1, (hagree c).2.1, (hagree c).2.2.1, (hagree c).2.2.2.1,
    (hagree c).2.2.2.2.1, (hagree c).2.2.2.2.2.1, (hagree c).2.2.2.2.2.2]
  exact Cert.Bridge.result_eq _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
